-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x256 : Shape := ⟨2, ![512, 256]⟩
abbrev S256x128 : Shape := ⟨2, ![256, 128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  main_v18

def fn {F : FTy → Type} [FloatOps F] (main_arg0 : FVec F S50000x512 .f32) (main_arg1 : IVec S800000 32) (main_arg2 : IVec S800000 32) (main_arg3 : FVec F S800000 .f32) (main_arg4 : FVec F S512x256 .f32) (main_arg5 : FVec F S256x128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_v13 main_v16
-- ==== Kernel.lean ====
abbrev S50000x512 : Shape := ⟨2, ![50000, 512]⟩
abbrev S800000 : Shape := ⟨1, ![800000]⟩
abbrev S512x256 : Shape := ⟨2, ![512, 256]⟩
abbrev S256x128 : Shape := ⟨2, ![256, 128]⟩
abbrev S50000x256 : Shape := ⟨2, ![50000, 256]⟩
abbrev S2000x512 : Shape := ⟨2, ![2000, 512]⟩
abbrev S2000x256 : Shape := ⟨2, ![2000, 256]⟩
abbrev S800000x1 : Shape := ⟨2, ![800000, 1]⟩
abbrev S_ : Shape := ⟨0, ![]⟩
abbrev S800000x256 : Shape := ⟨2, ![800000, 256]⟩
abbrev S50000x128 : Shape := ⟨2, ![50000, 128]⟩
abbrev S2000x128 : Shape := ⟨2, ![2000, 128]⟩
abbrev S800000x128 : Shape := ⟨2, ![800000, 128]⟩

abbrev nBuf : Space → Nat
  | .hbm => 42
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S256x128, .f32⟩
  | .hbm, ⟨6, _⟩ => ⟨S50000x256, .bf16⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x256, .bf16⟩
  | .hbm, ⟨17, _⟩ => ⟨S800000x256, .f32⟩
  | .hbm, ⟨18, _⟩ => ⟨S800000x256, .f32⟩
  | .hbm, ⟨19, _⟩ => ⟨S800000x256, .f32⟩
  | .hbm, ⟨20, _⟩ => ⟨S_, .f32⟩
  | .hbm, ⟨21, _⟩ => ⟨S50000x256, .f32⟩
  | .hbm, ⟨22, _⟩ => ⟨S800000x1, .i32⟩
  | .hbm, ⟨23, _⟩ => ⟨S50000x256, .f32⟩
  | .hbm, ⟨24, _⟩ => ⟨S50000x128, .bf16⟩
  | .hbm, ⟨25, _⟩ => ⟨S800000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .bf16⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .bf16⟩
  | .local _ .vmem, ⟨4, _⟩ => ⟨S2000x256, .bf16⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .bf16⟩
  | .local _ .vmem, ⟨9, _⟩ => ⟨S2000x128, .bf16⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .bf16 = 32 ∨ (Rect.block (s := S50000x256) S2000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .bf16 = 32 ∨ (Rect.block (s := S50000x128) S2000x128.size (cc1_transform_2 i) (hinb1_2 i)).WholeWords (EltTy.packing .bf16)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S800000 : Shape := ⟨1, ![800000]⟩
abbrev S512x256 : Shape := ⟨2, ![512, 256]⟩
abbrev S256x128 : Shape := ⟨2, ![256, 128]⟩
abbrev S50000x256 : Shape := ⟨2, ![50000, 256]⟩
abbrev S800000x1 : Shape := ⟨2, ![800000, 1]⟩
abbrev S_ : Shape := ⟨0, ![]⟩
abbrev S800000x256 : Shape := ⟨2, ![800000, 256]⟩
abbrev S50000x128 : Shape := ⟨2, ![50000, 128]⟩
abbrev S800000x128 : Shape := ⟨2, ![800000, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S256x128, .f32⟩
  | .hbm, ⟨6, _⟩ => ⟨S50000x256, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x256, .f32⟩
  | .hbm, ⟨17, _⟩ => ⟨S800000x256, .f32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S800000x1, .i32⟩
  | .hbm, ⟨22, _⟩ => ⟨S50000x256, .f32⟩
  | .hbm, ⟨23, _⟩ => ⟨S_, .f32⟩
  | .hbm, ⟨24, _⟩ => ⟨S50000x256, .f32⟩
  | .hbm, ⟨25, _⟩ => ⟨S50000x256, .f32⟩
  | .hbm, ⟨26, _⟩ => ⟨S50000x128, .f32⟩
  | .hbm, ⟨27, _⟩ => ⟨S800000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel program's run with its RESULT read, not only its arguments.

  @main is four segments: the first matrix product (a pipelined region over 25 row blocks), a stretch of host
  operations (gather the rows at the edge sources, scale by the edge weights, add into the rows at the edge
  destinations), the second matrix product (again a region), and the same host stretch once more. The generated
  frame follows the buffer contents through these segments as a fold `W0 → W1 → W2 → W3 → W4` and reads, off
  the final state, that the six arguments end as launched. The final state holds EVERY unscoped buffer at `W4`,
  so the same launch over the same segments also says what the result buffer ends holding: `W4` at that buffer.
  That is the statement here; what `W4` is there, as a function of the arguments, is the business of the modules
  that read the two regions and the two host stretches.
-/
import proofs.«109235_j88613765251764_2_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents `W4` and the six arguments end as launched. -/
theorem run : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Result

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.FirstProduct.lean ====
/-
  The first pipelined region: features · W1, 2000 rows at a time.

  The grid has 25 points. At point `t` the region stages rows 2000·t … 2000·t + 1999 of the features (all 512
  columns), the whole of W1 (staged once, at block (0, 0)), runs the body, and writes the body's [2000, 256] result
  back as rows 2000·t … 2000·t + 1999 of the output. The body narrows both operands to bf16, multiplies them on the
  matrix unit into a zero accumulator and narrows the result; on the extended reals every change of format is the
  identity and the product into zero is the plain sum over the 512 contraction indices, so the body's result is the
  product of its two loaded blocks (`body_eq`). Rows of a product are products of rows, so what point `t` writes
  back is block `t` of the product of the WHOLE arrays (`written_back`); the 25 blocks tile the 50000 rows
  (`covered`), hence after the region the output array is that product (`array_after`).

  Everything is stated at the region's entry contents `V`, a parameter: the run instantiates it.
-/
import proofs.«109235_j88613765251764_2_alg».proof.Proof.Gen.KernelIdeal.Frame
import proofs.«109235_j88613765251764_2_alg».proof.Proof.LibRowsTimes
import Idealize.ShloMosaic.Lib.Pipeline.Value
import Idealize.ShloMosaic.Lib.ValueIdx
import Idealize.ShloMosaic.PureOps.Ideal.Laws

set_option maxRecDepth 16384

noncomputable section

namespace Cert.KernelIdeal.First

open Idealize.ShloMosaic Idealize.ShloMosaic.TcCoe Idealize.SL.Sem Idealize.ShloMosaic.ValueIdx
open Idealize.ShloMosaic.Pipeline (Dat)
open Cert.KernelIdeal Cert.KernelIdeal.Gen Cert.Dense

variable (V : (c : Dev nD) → (b : Ref sig .tc) → Buf (Elt Ideal) ((c : Thread nD τ).loc b))

theorem hz : (![0, 0] : Fin 2 → Nat) = fun _ => 0 := funext fun a => by fin_cases a <;> rfl

/-- The contraction's left index at output (r, j) and contraction coordinate `q` is (r, q) … -/
theorem lhs_row (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide),
    dif_pos (show (0 : Fin S2000x512.rank) ∈ dot_S2000x512_S512x256_S2000x256_1_0_0_1_n_n.lhsNonContracting by decide)]
  rfl
theorem lhs_col (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
/-- … and its right index is (q, j). -/
theorem rhs_row (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem rhs_col (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide),
    dif_pos (show (1 : Fin S512x256.rank) ∈ dot_S2000x512_S512x256_S2000x256_1_0_0_1_n_n.rhsNonContracting by decide)]
  rfl

/-- The body's result is the product of the two blocks it loads. -/
theorem body_eq (x0 : Vec Ideal S2000x512 .f32) (x1 : Vec Ideal S512x256 .f32) :
    k0_pay1 x0 x1 = rowsTimes (M := 2000) (K := 512) (N := 256) x0 x1 := by
  funext j
  unfold k0_pay1
  show matmul (F := Ideal) dot_S2000x512_S512x256_S2000x256_1_0_0_1_n_n none (truncf (F := Ideal) .bf16 x0 bitsLt_bf16_f32)
    (truncf (F := Ideal) .bf16 x1 bitsLt_bf16_f32) (constant (F := Ideal) S2000x256 .f32 0x00000000#32) j = _
  simp only [matmul]
  rw [Ideal.matmul_constant_zero_apply]
  refine contraction_eq dot_S2000x512_S512x256_S2000x256_1_0_0_1_n_n rfl rfl x0 x1 _ _ j j (fun k => ?_) (fun k => ?_)
  · have hk := contrEquiv1_symm_val dot_S2000x512_S512x256_S2000x256_1_0_0_1_n_n 512 rfl rfl k
    show x0 _ = x0 _
    congr 1
    funext a; apply Fin.ext
    match a with
    | ⟨0, _⟩ => exact lhs_row _ _
    | ⟨1, _⟩ => exact (lhs_col _ _).trans hk
  · have hk := contrEquiv1_symm_val dot_S2000x512_S512x256_S2000x256_1_0_0_1_n_n 512 rfl rfl k
    show x1 _ = x1 _
    congr 1
    funext a; apply Fin.ext
    match a with
    | ⟨0, _⟩ => exact (rhs_row _ _).trans hk
    | ⟨1, _⟩ => exact rhs_col _ _

/-- The three index maps over the grid: the features' and the output's blocks move down one block of rows per
    point, W1's block stays at (0, 0). -/
theorem blocks_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point `t` holds rows 2000·t … of the features. -/
theorem features_block (c : Dev nD) (t : Fin cfg0.N) (y : S2000x512.Idx) (i : S50000x512.Idx)
    (h0 : (i 0).val = 2000 * t.val + (y 0).val) (h1 : (i 1).val = (y 1).val) :
    (iblk0 V c 0 t : Vec Ideal S2000x512 .f32) y = (V c main_arg0 : S50000x512.Idx → EReal) i := by
  obtain ⟨e0, e1, -⟩ := blocks_at t
  unfold iblk0
  rw [View.read_apply]
  show V c main_arg0 _ = V c main_arg0 _
  congr 1
  funext a; apply Fin.ext
  match a with
  | ⟨0, _⟩ => show win0_0.index t (0 : Fin 2) * 2000 + 1 * (y 0).val = (i 0).val; rw [e0, h0]; omega
  | ⟨1, _⟩ => show win0_0.index t (1 : Fin 2) * 512 + 1 * (y 1).val = (i 1).val; rw [e1, h1]; omega

/-- W1's block at every point is W1. -/
theorem weights_block (c : Dev nD) (t : Fin cfg0.N) (y : S512x256.Idx) (i : S512x256.Idx)
    (h0 : (i 0).val = (y 0).val) (h1 : (i 1).val = (y 1).val) :
    (iblk0 V c 1 t : Vec Ideal S512x256 .f32) y = (V c main_arg4 : S512x256.Idx → EReal) i := by
  obtain ⟨-, -, e0, e1, -⟩ := blocks_at t
  unfold iblk0
  rw [View.read_apply]
  show V c main_arg4 _ = V c main_arg4 _
  congr 1
  funext a; apply Fin.ext
  match a with
  | ⟨0, _⟩ => show win0_1.index t (0 : Fin 2) * 512 + 1 * (y 0).val = (i 0).val; rw [e0, h0]; omega
  | ⟨1, _⟩ => show win0_1.index t (1 : Fin 2) * 256 + 1 * (y 1).val = (i 1).val; rw [e1, h1]; omega

/-- The product of the whole arrays as the region finds them. -/
abbrev product (c : Dev nD) : S50000x256.Idx → EReal :=
  rowsTimes (M := 50000) (K := 512) (N := 256) (V c main_arg0) (V c main_arg4)

/-- What point `t` writes back is block `t` of the whole product. -/
theorem written_back (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  rw [body_eq]
  obtain ⟨-, -, -, -, e0, e1⟩ := blocks_at t
  funext j
  show rowsTimes (M := 2000) (K := 512) (N := 256) (iblk0 V c 0 t) (iblk0 V c 1 t) j
    = product V c (((cfg0.win 2).blk t).view.emb j)
  have r0 : ((((cfg0.win 2).blk t).view.emb j) 0).val = 2000 * t.val + (j 0).val := by
    show win0_2.index t (0 : Fin 2) * 2000 + 1 * (j 0).val = _; rw [e0]; omega
  have r1 : ((((cfg0.win 2).blk t).view.emb j) 1).val = (j 1).val := by
    show win0_2.index t (1 : Fin 2) * 256 + 1 * (j 1).val = _; rw [e1]; omega
  refine rowsTimes_of_rows _ _ _ _ j _ (fun k => ?_) (fun k => ?_)
  · exact features_block V c t _ _ r0 rfl
  · exact weights_block V c t _ _ rfl r1

/-- An index of the output is in point `t`'s block iff each coordinate is in the block's range on its axis. -/
theorem mem_block (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v0).slice (win0_2.rect t)).set ↔ _
  rw [View.set_slice_whole, Rect.mem_set_unit]
  exact Iff.rfl

/-- Every row of the output is in the block of the point that is its row number over 2000. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  let t : Fin cfg0.N := ⟨(i 0).val / 2000, by rw [show cfg0.N = 25 from N_0]; omega⟩
  obtain ⟨-, -, -, -, e0, e1⟩ := blocks_at t
  have ht : t.val = (i 0).val / 2000 := rfl
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; rw [e0, ht]; omega
  | ⟨1, _⟩ => show win0_2.index t (1 : Fin 2) * 256 ≤ (i 1).val ∧ (i 1).val < win0_2.index t (1 : Fin 2) * 256 + 256; rw [e1]; omega

/-- After the region the output array is the product of the whole arrays. -/
theorem array_after (c : Dev nD) : (dat0 V c).arrAt 2 cfg0.N = product V c :=
  (dat0 V c).arrAt_eq_of_cover 2 (product V c) (fun t _ => written_back V c t) covered

end Cert.KernelIdeal.First

end
-- ==== Proof.SecondProduct.lean ====
/-
  The second pipelined region: relu(h) · W2, 2000 rows at a time, where `h` is the array the first host stretch
  left (the edge sum of the first product).

  Again 25 points; at point `t` the region stages rows 2000·t … 2000·t + 1999 of `h` (all 256 columns) and the whole
  of W2, and writes the body's [2000, 128] result back as the same rows of the output. The body takes the maximum of
  its block with zero, entry by entry, before it narrows it to bf16 and multiplies; format changes are the identity on
  the extended reals and a shape cast to the same shape is the identity, so the body's result is the product of the
  RECTIFIED block with W2 (`body_eq`). The rectifier acts entry by entry and rows of a product are products of rows,
  so what point `t` writes back is block `t` of `relu h · W2` over the whole arrays (`written_back`); the blocks
  tile the 50000 rows (`covered`), hence after the region the output array is that product (`array_after`).

  Everything is stated at the region's entry contents `V`, a parameter: the run instantiates it.
-/
import proofs.«109235_j88613765251764_2_alg».proof.Proof.Gen.KernelIdeal.Frame
import proofs.«109235_j88613765251764_2_alg».proof.Proof.LibRowsTimes
import Idealize.ShloMosaic.Lib.Pipeline.Value
import Idealize.ShloMosaic.Lib.ValueIdx
import Idealize.ShloMosaic.PureOps.Ideal.Laws

set_option maxRecDepth 16384

noncomputable section

namespace Cert.KernelIdeal.Second

open Idealize.ShloMosaic Idealize.ShloMosaic.TcCoe Idealize.SL.Sem Idealize.ShloMosaic.ValueIdx
open Idealize.ShloMosaic.Pipeline (Dat)
open Cert.KernelIdeal Cert.KernelIdeal.Gen Cert.Dense

variable (V : (c : Dev nD) → (b : Ref sig .tc) → Buf (Elt Ideal) ((c : Thread nD τ).loc b))

theorem hz : (![0, 0] : Fin 2 → Nat) = fun _ => 0 := funext fun a => by fin_cases a <;> rfl

/-- The contraction's left index at output (r, j) and contraction coordinate `q` is (r, q) … -/
theorem lhs_row (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl
theorem lhs_col (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- … and its right index is (q, j). -/
theorem rhs_row (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_col (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-- The body's result is the product of the rectified block with the weights it loads. -/
theorem body_eq (x0 : Vec Ideal S2000x256 .f32) (x1 : Vec Ideal S256x128 .f32) :
    k1_pay1 x0 x1 = rowsTimes (M := 2000) (K := 256) (N := 128) (relu (S := S2000x256) x0) x1 := by
  funext j
  unfold k1_pay1
  rw [shapeCast_self]
  show matmul (F := Ideal) dot_S2000x256_S256x128_S2000x128_1_0_0_1_n_n none
    (truncf (F := Ideal) .bf16 (maximumf (F := Ideal) x0 (broadcast S2000x256 (Scalar.ofBits (F := Ideal) .f32 0x00000000#32))) bitsLt_bf16_f32)
    (truncf (F := Ideal) .bf16 x1 bitsLt_bf16_f32) (constant (F := Ideal) S2000x128 .f32 0x00000000#32) j = _
  simp only [matmul]
  rw [Ideal.matmul_constant_zero_apply]
  refine contraction_eq dot_S2000x256_S256x128_S2000x128_1_0_0_1_n_n rfl rfl (relu (S := S2000x256) x0) x1 _ _ j j (fun k => ?_) (fun k => ?_)
  · have hk := contrEquiv1_symm_val dot_S2000x256_S256x128_S2000x128_1_0_0_1_n_n 256 rfl rfl k
    show relu (S := S2000x256) x0 _ = relu (S := S2000x256) x0 _
    congr 1
    funext a; apply Fin.ext
    match a with
    | ⟨0, _⟩ => exact lhs_row _ _
    | ⟨1, _⟩ => exact (lhs_col _ _).trans hk
  · have hk := contrEquiv1_symm_val dot_S2000x256_S256x128_S2000x128_1_0_0_1_n_n 256 rfl rfl k
    show x1 _ = x1 _
    congr 1
    funext a; apply Fin.ext
    match a with
    | ⟨0, _⟩ => exact (rhs_row _ _).trans hk
    | ⟨1, _⟩ => exact rhs_col _ _

/-- The three index maps over the grid: the input's and the output's blocks move down one block of rows per
    point, W2's block stays at (0, 0). -/
theorem blocks_at : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input's block at point `t` holds rows 2000·t … of the input array. -/
theorem input_block (c : Dev nD) (t : Fin cfg1.N) (y : S2000x256.Idx) (i : S50000x256.Idx)
    (h0 : (i 0).val = 2000 * t.val + (y 0).val) (h1 : (i 1).val = (y 1).val) :
    (iblk1 V c 0 t : Vec Ideal S2000x256 .f32) y = (V c main_v14 : S50000x256.Idx → EReal) i := by
  obtain ⟨e0, e1, -⟩ := blocks_at t
  unfold iblk1
  rw [View.read_apply]
  show V c main_v14 _ = V c main_v14 _
  congr 1
  funext a; apply Fin.ext
  match a with
  | ⟨0, _⟩ => show win1_0.index t (0 : Fin 2) * 2000 + 1 * (y 0).val = (i 0).val; rw [e0, h0]; omega
  | ⟨1, _⟩ => show win1_0.index t (1 : Fin 2) * 256 + 1 * (y 1).val = (i 1).val; rw [e1, h1]; omega

/-- W2's block at every point is W2. -/
theorem weights_block (c : Dev nD) (t : Fin cfg1.N) (y : S256x128.Idx) (i : S256x128.Idx)
    (h0 : (i 0).val = (y 0).val) (h1 : (i 1).val = (y 1).val) :
    (iblk1 V c 1 t : Vec Ideal S256x128 .f32) y = (V c main_arg5 : S256x128.Idx → EReal) i := by
  obtain ⟨-, -, e0, e1, -⟩ := blocks_at t
  unfold iblk1
  rw [View.read_apply]
  show V c main_arg5 _ = V c main_arg5 _
  congr 1
  funext a; apply Fin.ext
  match a with
  | ⟨0, _⟩ => show win1_1.index t (0 : Fin 2) * 256 + 1 * (y 0).val = (i 0).val; rw [e0, h0]; omega
  | ⟨1, _⟩ => show win1_1.index t (1 : Fin 2) * 128 + 1 * (y 1).val = (i 1).val; rw [e1, h1]; omega

/-- The product of the whole arrays as the region finds them, the input rectified. -/
abbrev product (c : Dev nD) : S50000x128.Idx → EReal :=
  rowsTimes (M := 50000) (K := 256) (N := 128) (relu (S := S50000x256) (V c main_v14)) (V c main_arg5)

/-- What point `t` writes back is block `t` of the whole product. -/
theorem written_back (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x128) hz]
  rw [body_eq]
  obtain ⟨-, -, -, -, e0, e1⟩ := blocks_at t
  funext j
  show rowsTimes (M := 2000) (K := 256) (N := 128) (relu (S := S2000x256) (iblk1 V c 0 t)) (iblk1 V c 1 t) j
    = product V c (((cfg1.win 2).blk t).view.emb j)
  have r0 : ((((cfg1.win 2).blk t).view.emb j) 0).val = 2000 * t.val + (j 0).val := by
    show win1_2.index t (0 : Fin 2) * 2000 + 1 * (j 0).val = _; rw [e0]; omega
  have r1 : ((((cfg1.win 2).blk t).view.emb j) 1).val = (j 1).val := by
    show win1_2.index t (1 : Fin 2) * 128 + 1 * (j 1).val = _; rw [e1]; omega
  refine rowsTimes_of_rows _ _ _ _ j _ (fun k => ?_) (fun k => ?_)
  · exact congrArg (fun v : EReal => max v (Ideal.ofBits .f32 0x00000000#32)) (input_block V c t _ _ r0 rfl)
  · exact weights_block V c t _ _ rfl r1

/-- An index of the output is in point `t`'s block iff each coordinate is in the block's range on its axis. -/
theorem mem_block (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v15).slice (win1_2.rect t)).set ↔ _
  rw [View.set_slice_whole, Rect.mem_set_unit]
  exact Iff.rfl

/-- Every row of the output is in the block of the point that is its row number over 2000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := ⟨(i 0).val / 2000, by rw [show cfg1.N = 25 from N_1]; omega⟩
  obtain ⟨-, -, -, -, e0, e1⟩ := blocks_at t
  have ht : t.val = (i 0).val / 2000 := rfl
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; rw [e0, ht]; omega
  | ⟨1, _⟩ => show win1_2.index t (1 : Fin 2) * 128 ≤ (i 1).val ∧ (i 1).val < win1_2.index t (1 : Fin 2) * 128 + 128; rw [e1]; omega

/-- After the region the output array is the product of the whole arrays. -/
theorem array_after (c : Dev nD) : (dat1 V c).arrAt 2 cfg1.N = product V c :=
  (dat1 V c).arrAt_eq_of_cover 2 (product V c) (fun t _ => written_back V c t) covered

end Cert.KernelIdeal.Second

end
-- ==== Proof.EdgeSum.lean ====
/-
  The two host stretches of the kernel's program: summing over the edges.

  Both stretches are the same eleven-odd operations at two widths (256, then 128). From an array `x` with one row
  per node they make the array whose row `d` is the sum, over the edges `e` whose destination is `d`, of
  `weight e · x[source e]`: a negative source index counts from the end (+50000), the rows are gathered at the
  sources, widened from bf16 (the identity on the extended reals), scaled by the edge's weight, and added into a
  zero array at the destinations. Nothing here opens that sum: the reference applies the very same operations, so it
  is carried as ONE function of (sources, destinations, weights, x) — `edgeSum256`, `edgeSum128` — and all this
  module proves is that each stretch's result IS that function of the arguments as launched and of the array the
  region before it left (`second_entry`, `result`), and that the stretches and regions leave the arguments where
  the next reader finds them.
-/
import proofs.«109235_j88613765251764_2_alg».proof.Proof.Gen.KernelIdeal.Frame
import Idealize.ShloMosaic.Lib.StableHlo.Run
import Idealize.ShloMosaic.PureOps.Ideal.Laws

set_option maxRecDepth 16384

noncomputable section

namespace Cert.KernelIdeal.Edges

open Idealize.ShloMosaic Idealize.ShloMosaic.TcCoe Idealize.SL.Sem
open Cert.KernelIdeal Cert.KernelIdeal.Gen

/-- Row `d` of the result: the sum over the edges into `d` of weight · (row of `x` at the edge's source), 256 wide. -/
def edgeSum256 (src dst : (⟨S800000, .i32⟩ : BufTy).Contents (Elt Ideal)) (wt : (⟨S800000, .f32⟩ : BufTy).Contents (Elt Ideal))
    (x : (⟨S50000x256, .bf16⟩ : BufTy).Contents (Elt Ideal)) : (⟨S50000x256, .f32⟩ : BufTy).Contents (Elt Ideal) :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 dst)
    (mulf (F := Ideal) (broadcastInDim S800000x256 ![0, 1] bcast_S800000x1_S800000x256_0_1 (broadcastInDim S800000x1 ![0] bcast_S800000_S800000x1_0 wt))
      (extf (F := Ideal) .f32 (Host.gather gather_S50000x256_S800000x1_S800000x256_1_0_n_n_0_1_1256 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))) bitsLt_bf16_f32))

/-- The same, 128 wide. -/
def edgeSum128 (src dst : (⟨S800000, .i32⟩ : BufTy).Contents (Elt Ideal)) (wt : (⟨S800000, .f32⟩ : BufTy).Contents (Elt Ideal))
    (x : (⟨S50000x128, .bf16⟩ : BufTy).Contents (Elt Ideal)) : (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (mulf (F := Ideal) (broadcastInDim S800000x128 ![0, 1] bcast_S800000x1_S800000x128_0_1 (broadcastInDim S800000x1 ![0] bcast_S800000_S800000x1_0 wt))
      (extf (F := Ideal) .f32 (Host.gather gather_S50000x128_S800000x1_S800000x128_1_0_n_n_0_1_1128 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))) bitsLt_bf16_f32))

variable (m : (ℓ : Loc nD τ sig) → Buf (Elt Ideal) ℓ) (ρ : Dev nD → PrngReg)

/-! ## The arguments, as each reader finds them -/

/-- The first region writes none of the edge arrays. -/
theorem after_first_src (c : Dev nD) : W1 m ρ c (Proc.devRef .tc main_arg1) = m ((c : Thread nD τ).loc main_arg1) :=
  W1_of_ne m ρ c main_arg1 (by decide)
theorem after_first_dst (c : Dev nD) : W1 m ρ c (Proc.devRef .tc main_arg2) = m ((c : Thread nD τ).loc main_arg2) :=
  W1_of_ne m ρ c main_arg2 (by decide)
theorem after_first_wt (c : Dev nD) : W1 m ρ c (Proc.devRef .tc main_arg3) = m ((c : Thread nD τ).loc main_arg3) :=
  W1_of_ne m ρ c main_arg3 (by decide)

/-- Neither the first region nor the first stretch writes W2. -/
theorem second_entry_weights (c : Dev nD) : W2 m ρ c (Proc.devRef .tc main_arg5) = m ((c : Thread nD τ).loc main_arg5) :=
  calc W2 m ρ c (Proc.devRef .tc main_arg5)
    _ = W1 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := W1_of_ne m ρ c main_arg5 (by decide)

/-- Nor does anything up to the second region's exit write an edge array. -/
theorem after_second_src (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := W1_of_ne m ρ c main_arg1 (by decide)
theorem after_second_dst (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := W1_of_ne m ρ c main_arg2 (by decide)
theorem after_second_wt (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := W1_of_ne m ρ c main_arg3 (by decide)

/-! ## The two stretches -/

/-- The first stretch from ANY contents `W`: the buffer the second region reads ends at the edge sum of what `W`
    holds in the first region's output, over the edge arrays as `W` holds them. -/
theorem first_stretch (W : Valuation τ sig (Elt Ideal)) :
    StableHlo.after hostOps1 W (Proc.devRef .tc main_v14)
      = edgeSum256 (W (Proc.devRef .tc main_arg1)) (W (Proc.devRef .tc main_arg2)) (W (Proc.devRef .tc main_arg3))
          (W (Proc.devRef .tc main_v0)) := by
  after_results
  unfold edgeSum256
  rfl

/-- The second stretch from any contents `W`, likewise: the program's result buffer ends at the edge sum of what
    `W` holds in the second region's output. -/
theorem second_stretch (W : Valuation τ sig (Elt Ideal)) :
    StableHlo.after hostOps2 W (Proc.devRef .tc main_v29)
      = edgeSum128 (W (Proc.devRef .tc main_arg1)) (W (Proc.devRef .tc main_arg2)) (W (Proc.devRef .tc main_arg3))
          (W (Proc.devRef .tc main_v15)) := by
  after_results
  unfold edgeSum128
  rfl

/-- What the second region finds in its input array: the edge sum of what the first region left. -/
theorem second_entry (c : Dev nD) :
    W2 m ρ c (Proc.devRef .tc main_v14)
      = edgeSum256 (m ((c : Thread nD τ).loc main_arg1)) (m ((c : Thread nD τ).loc main_arg2)) (m ((c : Thread nD τ).loc main_arg3))
          (W1 m ρ c (Proc.devRef .tc main_v0)) := by
  rw [← after_first_src m ρ c, ← after_first_dst m ρ c, ← after_first_wt m ρ c]
  exact first_stretch (W1 m ρ c)

/-- What the program returns: the edge sum of what the second region left. -/
theorem result (c : Dev nD) :
    W4 m ρ c (Proc.devRef .tc main_v29)
      = edgeSum128 (m ((c : Thread nD τ).loc main_arg1)) (m ((c : Thread nD τ).loc main_arg2)) (m ((c : Thread nD τ).loc main_arg3))
          (W3 m ρ c (Proc.devRef .tc main_v15)) := by
  rw [← after_second_src m ρ c, ← after_second_dst m ρ c, ← after_second_wt m ρ c]
  exact second_stretch (W3 m ρ c)

end Cert.KernelIdeal.Edges

end
-- ==== Proof.KernelValue.lean ====
/-
  What the idealized kernel program returns, as ONE function of its six arguments.

  Reading the four segments in order — the first region leaves features · W1; the first stretch takes its edge sum;
  the second region leaves relu(that) · W2; the second stretch takes the edge sum again — the result buffer ends at

      edgeSum128 src dst wt (relu (edgeSum256 src dst wt (features · W1)) · W2).

  Each step is a lemma of the module that reads that segment; here they are only composed, each inside the
  function that consumes it (`congrArg`), so no array is ever opened.
-/
import proofs.«109235_j88613765251764_2_alg».proof.Proof.KernelRun
import proofs.«109235_j88613765251764_2_alg».proof.Proof.FirstProduct
import proofs.«109235_j88613765251764_2_alg».proof.Proof.SecondProduct
import proofs.«109235_j88613765251764_2_alg».proof.Proof.EdgeSum

set_option maxRecDepth 16384

noncomputable section

namespace Cert.KernelIdeal.Whole

open Idealize.ShloMosaic Idealize.ShloMosaic.TcCoe Idealize.SL.Sem
open Cert.KernelIdeal Cert.KernelIdeal.Gen Cert.KernelIdeal.Edges Cert.Dense

/-- The two-layer network on the extended reals, in the kernel program's vocabulary. -/
def network (a0 : (⟨S50000x512, .f32⟩ : BufTy).Contents (Elt Ideal)) (a1 a2 : (⟨S800000, .i32⟩ : BufTy).Contents (Elt Ideal))
    (a3 : (⟨S800000, .f32⟩ : BufTy).Contents (Elt Ideal)) (a4 : (⟨S512x256, .f32⟩ : BufTy).Contents (Elt Ideal))
    (a5 : (⟨S256x128, .f32⟩ : BufTy).Contents (Elt Ideal)) : (⟨S50000x128, .f32⟩ : BufTy).Contents (Elt Ideal) :=
  edgeSum128 a1 a2 a3
    (rowsTimes (M := 50000) (K := 256) (N := 128)
      (relu (S := S50000x256) (edgeSum256 a1 a2 a3 (rowsTimes (M := 50000) (K := 512) (N := 256) a0 a4))) a5)

variable (m : (ℓ : Loc nD τ sig) → Buf (Elt Ideal) ℓ) (ρ : Dev nD → PrngReg)

/-- After the first region its output holds features · W1 (the region is entered from the launch memory). -/
theorem first_out (c : Dev nD) :
    W1 m ρ c (Proc.devRef .tc main_v0)
      = rowsTimes (M := 50000) (K := 512) (N := 256) (m ((c : Thread nD τ).loc main_arg0)) (m ((c : Thread nD τ).loc main_arg4)) :=
  (W1_arr m ρ c 2).trans (First.array_after (V0 m ρ) c)

/-- The second region's input holds the edge sum of that. -/
theorem second_in (c : Dev nD) :
    V2 m ρ c main_v14
      = edgeSum256 (m ((c : Thread nD τ).loc main_arg1)) (m ((c : Thread nD τ).loc main_arg2)) (m ((c : Thread nD τ).loc main_arg3))
          (rowsTimes (M := 50000) (K := 512) (N := 256) (m ((c : Thread nD τ).loc main_arg0)) (m ((c : Thread nD τ).loc main_arg4))) :=
  (second_entry m ρ c).trans (congrArg (edgeSum256 _ _ _) (first_out m ρ c))

/-- After the second region its output holds relu(input) · W2. -/
theorem second_out (c : Dev nD) :
    W3 m ρ c (Proc.devRef .tc main_v15)
      = rowsTimes (M := 50000) (K := 256) (N := 128)
          (relu (S := S50000x256) (edgeSum256 (m ((c : Thread nD τ).loc main_arg1)) (m ((c : Thread nD τ).loc main_arg2)) (m ((c : Thread nD τ).loc main_arg3))
            (rowsTimes (M := 50000) (K := 512) (N := 256) (m ((c : Thread nD τ).loc main_arg0)) (m ((c : Thread nD τ).loc main_arg4)))))
          (m ((c : Thread nD τ).loc main_arg5)) := by
  refine (W3_arr m ρ c 2).trans ((Second.array_after (V2 m ρ) c).trans ?_)
  show rowsTimes (M := 50000) (K := 256) (N := 128) (relu (S := S50000x256) (V2 m ρ c main_v14)) (V2 m ρ c main_arg5) = _
  rw [second_in m ρ c, show V2 m ρ c main_arg5 = m ((c : Thread nD τ).loc main_arg5) from second_entry_weights m ρ c]

/-- The result buffer ends at the network of the arguments as launched. -/
theorem result_eq (c : Dev nD) :
    W4 m ρ c (Proc.devRef .tc main_v29)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  (result m ρ c).trans (congrArg (edgeSum128 _ _ _) (second_out m ρ c))

/-- The run, read: the result at the network of the arguments, the arguments unchanged. -/
theorem run : θ_run defs (onTc (τ := τ) (main (F := Ideal))) ⟨m, fun _ => 0, ρ⟩ (fun r => ∀ c : Dev nD,
      r.2.mem ((c.tc : Thread nD τ).loc main_v29)
        = network (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.Result.run (F := Ideal) m ρ)

end Cert.KernelIdeal.Whole

end
-- ==== Proof.Reference.lean ====
/-
  The reference computes the same network.

  Its run ends with the result at one composed term of the arguments: `dot_general`, the edge sum (gather at the
  sources, scale by the weights, add into zeros at the destinations), the maximum with a zero array, `dot_general`,
  the edge sum again. On the extended reals each piece is the piece of the kernel program's function:

  * a `dot_general` contracting the second axis of its left operand with the first of its right is the sum over
    that axis of the products — the product of the two arrays (`first_product`, `second_product`);
  * the maximum with the all-zero array is the rectifier, entry by entry (`rectified`);
  * its edge sum is the kernel program's, which gathers at bf16 and widens: widening is the identity, and the
    shape records of the two programs hold the same dimension numbers (`edges256`, `edges128`).

  So the reference's term is `network` of the arguments (`term_eq`): both programs sum the same products in the same
  order, and no law of arithmetic beyond that is used.
-/
import proofs.«109235_j88613765251764_2_alg».proof.Proof.Gen.ReferenceIdeal.Read
import proofs.«109235_j88613765251764_2_alg».proof.Proof.KernelValue

set_option maxRecDepth 16384

noncomputable section

namespace Cert.ReferenceIdeal.AsNetwork

open Idealize.ShloMosaic Idealize.ShloMosaic.TcCoe Idealize.SL.Sem Idealize.ShloMosaic.ValueIdx
open Cert.ReferenceIdeal Cert.ReferenceIdeal.Gen Cert.Dense

/-- features · W1, as the reference's `dot_general` computes it. -/
theorem first_product (l : FVec Ideal S50000x512 .f32) (r : FVec Ideal S512x256 .f32) :
    Host.dotGeneral (F := Ideal) dot_S50000x512_S512x256_S50000x256_1_0_0_1_n_n none l r = rowsTimes (M := 50000) (K := 512) (N := 256) l r := by
  funext i
  simp only [Host.dotGeneral]
  rw [Ideal.dotGeneral_apply]
  refine contraction_eq dot_S50000x512_S512x256_S50000x256_1_0_0_1_n_n rfl rfl l r _ _ i i (fun k => ?_) (fun k => ?_)
  · have hk := contrEquiv1_symm_val dot_S50000x512_S512x256_S50000x256_1_0_0_1_n_n 512 rfl rfl k
    show l _ = l _
    congr 1
    funext a; apply Fin.ext
    match a with
    | ⟨0, _⟩ => exact Read.lhs_main_v0_0 _ _
    | ⟨1, _⟩ => exact (Read.lhs_main_v0_1 _ _).trans hk
  · have hk := contrEquiv1_symm_val dot_S50000x512_S512x256_S50000x256_1_0_0_1_n_n 512 rfl rfl k
    show r _ = r _
    congr 1
    funext a; apply Fin.ext
    match a with
    | ⟨0, _⟩ => exact (Read.rhs_main_v0_0 _ _).trans hk
    | ⟨1, _⟩ => exact Read.rhs_main_v0_1 _ _

/-- h · W2, likewise. -/
theorem second_product (l : FVec Ideal S50000x256 .f32) (r : FVec Ideal S256x128 .f32) :
    Host.dotGeneral (F := Ideal) dot_S50000x256_S256x128_S50000x128_1_0_0_1_n_n none l r = rowsTimes (M := 50000) (K := 256) (N := 128) l r := by
  funext i
  simp only [Host.dotGeneral]
  rw [Ideal.dotGeneral_apply]
  refine contraction_eq dot_S50000x256_S256x128_S50000x128_1_0_0_1_n_n rfl rfl l r _ _ i i (fun k => ?_) (fun k => ?_)
  · have hk := contrEquiv1_symm_val dot_S50000x256_S256x128_S50000x128_1_0_0_1_n_n 256 rfl rfl k
    show l _ = l _
    congr 1
    funext a; apply Fin.ext
    match a with
    | ⟨0, _⟩ => exact Read.lhs_main_v15_0 _ _
    | ⟨1, _⟩ => exact (Read.lhs_main_v15_1 _ _).trans hk
  · have hk := contrEquiv1_symm_val dot_S50000x256_S256x128_S50000x128_1_0_0_1_n_n 256 rfl rfl k
    show r _ = r _
    congr 1
    funext a; apply Fin.ext
    match a with
    | ⟨0, _⟩ => exact (Read.rhs_main_v15_0 _ _).trans hk
    | ⟨1, _⟩ => exact Read.rhs_main_v15_1 _ _

/-- The maximum with the all-zero array is the rectifier. -/
theorem rectified (h : FVec Ideal S50000x256 .f32) :
    maximumf (F := Ideal) h (broadcastInDim S50000x256 ![] bcast_S_S50000x256 (constant (F := Ideal) S_ .f32 0x00000000#32))
      = relu (S := S50000x256) h := rfl

/-- The reference's edge sum at width 256 is the kernel program's. -/
theorem edges256 (a1 a2 : (⟨S800000, .i32⟩ : BufTy).Contents (Elt Ideal)) (a3 : FVec Ideal S800000 .f32)
    (x : FVec Ideal S50000x256 .f32) :
    Host.scatterAdd (F := Ideal) scatter_S50000x256_S800000x1_S800000x256_1_0_0_1
      (broadcastInDim S50000x256 ![] bcast_S_S50000x256 (constant (F := Ideal) S_ .f32 0x00000000#32))
      (broadcastInDim S800000x1 ![0] bcast_S800000_S800000x1_0 a2)
      (mulf (F := Ideal) (broadcastInDim S800000x256 ![0, 1] bcast_S800000x1_S800000x256_0_1 (broadcastInDim S800000x1 ![0] bcast_S800000_S800000x1_0 a3))
        (Host.gather gather_S50000x256_S800000x1_S800000x256_1_0_n_n_0_1_1256 x
          (broadcastInDim S800000x1 ![0] bcast_S800000_S800000x1_0
            (select (cmpi .slt a1 (broadcastInDim S800000 ![] bcast_S_S800000 (constantI S_ 32 0#32)))
              (addi a1 (broadcastInDim S800000 ![] bcast_S_S800000 (constantI S_ 32 50000#32))) a1))))
      = Cert.KernelIdeal.Edges.edgeSum256 a1 a2 a3 x := by
  unfold Cert.KernelIdeal.Edges.edgeSum256
  rfl

/-- And at width 128. -/
theorem edges128 (a1 a2 : (⟨S800000, .i32⟩ : BufTy).Contents (Elt Ideal)) (a3 : FVec Ideal S800000 .f32)
    (x : FVec Ideal S50000x128 .f32) :
    Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 a2)
      (mulf (F := Ideal) (broadcastInDim S800000x128 ![0, 1] bcast_S800000x1_S800000x128_0_1 (broadcastInDim S800000x1 ![0] bcast_S800000_S800000x1_0 a3))
        (Host.gather gather_S50000x128_S800000x1_S800000x128_1_0_n_n_0_1_1128 x
          (broadcastInDim S800000x1 ![0] bcast_S800000_S800000x1_0
            (select (cmpi .slt a1 (broadcastInDim S800000 ![] bcast_S_S800000 (constantI S_ 32 0#32)))
              (addi a1 (broadcastInDim S800000 ![] bcast_S_S800000 (constantI S_ 32 50000#32))) a1))))
      = Cert.KernelIdeal.Edges.edgeSum128 a1 a2 a3 x := by
  unfold Cert.KernelIdeal.Edges.edgeSum128
  rfl

/-- The reference's composed term is the network of the arguments. -/
theorem term_eq (a0 : FVec Ideal S50000x512 .f32) (a1 a2 : (⟨S800000, .i32⟩ : BufTy).Contents (Elt Ideal))
    (a3 : FVec Ideal S800000 .f32) (a4 : FVec Ideal S512x256 .f32)
    (a5 : FVec Ideal S256x128 .f32) :
    Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 a2)
      (mulf (F := Ideal) (broadcastInDim S800000x128 ![0, 1] bcast_S800000x1_S800000x128_0_1 (broadcastInDim S800000x1 ![0] bcast_S800000_S800000x1_0 a3))
        (Host.gather gather_S50000x128_S800000x1_S800000x128_1_0_n_n_0_1_1128 (Host.dotGeneral (F := Ideal) dot_S50000x256_S256x128_S50000x128_1_0_0_1_n_n none
            (maximumf (F := Ideal)
              (Host.scatterAdd (F := Ideal) scatter_S50000x256_S800000x1_S800000x256_1_0_0_1
      (broadcastInDim S50000x256 ![] bcast_S_S50000x256 (constant (F := Ideal) S_ .f32 0x00000000#32))
      (broadcastInDim S800000x1 ![0] bcast_S800000_S800000x1_0 a2)
      (mulf (F := Ideal) (broadcastInDim S800000x256 ![0, 1] bcast_S800000x1_S800000x256_0_1 (broadcastInDim S800000x1 ![0] bcast_S800000_S800000x1_0 a3))
        (Host.gather gather_S50000x256_S800000x1_S800000x256_1_0_n_n_0_1_1256 (Host.dotGeneral (F := Ideal) dot_S50000x512_S512x256_S50000x256_1_0_0_1_n_n none a0 a4)
          (broadcastInDim S800000x1 ![0] bcast_S800000_S800000x1_0
            (select (cmpi .slt a1 (broadcastInDim S800000 ![] bcast_S_S800000 (constantI S_ 32 0#32)))
              (addi a1 (broadcastInDim S800000 ![] bcast_S_S800000 (constantI S_ 32 50000#32))) a1)))))
              (broadcastInDim S50000x256 ![] bcast_S_S50000x256 (constant (F := Ideal) S_ .f32 0x00000000#32))) a5)
          (broadcastInDim S800000x1 ![0] bcast_S800000_S800000x1_0
            (select (cmpi .slt a1 (broadcastInDim S800000 ![] bcast_S_S800000 (constantI S_ 32 0#32)))
              (addi a1 (broadcastInDim S800000 ![] bcast_S_S800000 (constantI S_ 32 50000#32))) a1))))
      = Cert.KernelIdeal.Whole.network a0 a1 a2 a3 a4 a5 := by
  rw [first_product, edges256, rectified, second_product, edges128]
  rfl

end Cert.ReferenceIdeal.AsNetwork

end
-- ==== Proof.lean ====
/-
  A two-layer graph network, twice "dense product, then sum over the edges", with a rectifier between the layers:

      out = E (relu (E (features · W1)) · W2),      (E x)[d] = ∑ over edges e into d of weight e · x[source e].

  The kernel program computes each dense product 2000 rows at a time on the matrix unit, with bf16 operands and a
  bf16 result, rectifies inside the second product's body, and leaves the two edge sums to the host; the reference
  is the same formula in plain array operations. On the extended reals a change of float format is the identity,
  a matrix-unit product into a zero accumulator and the host's `dot_general` are the same sum of products, rows of
  a product are products of rows, and the edge sum is literally the same chain of operations in both programs. So
  both results are ONE function of the six arguments (`network`), and the claim needs no law of arithmetic beyond
  that — in particular the precondition (finite inputs) is never opened.

  The pieces: LibRowsTimes (the product and the rectifier, entry by entry), FirstProduct and SecondProduct (each
  region's output array after its 25 grid points), EdgeSum (the two host stretches as one function each),
  KernelRun and KernelValue (the kernel program's run with its result read, and that result as `network` of the
  arguments), Reference (the reference's term is `network`). Below, the five conjuncts.
-/
import proofs.«109235_j88613765251764_2_alg».proof.Defs
import proofs.«109235_j88613765251764_2_alg».proof.Proof.Gen.Kernel
import proofs.«109235_j88613765251764_2_alg».proof.Proof.Gen.Kernel.Frame
import proofs.«109235_j88613765251764_2_alg».proof.Proof.Gen.KernelIdeal
import proofs.«109235_j88613765251764_2_alg».proof.Proof.Gen.KernelIdeal.Frame
import proofs.«109235_j88613765251764_2_alg».proof.Proof.Gen.ReferenceIdeal
import proofs.«109235_j88613765251764_2_alg».proof.Proof.Gen.ReferenceIdeal.Run
import proofs.«109235_j88613765251764_2_alg».proof.Proof.Gen.Pre_finite_inputs
import proofs.«109235_j88613765251764_2_alg».proof.Proof.KernelValue
import proofs.«109235_j88613765251764_2_alg».proof.Proof.Reference

noncomputable section

namespace Cert.Proof

open Idealize.ShloMosaic Idealize.ShloMosaic.TcCoe Idealize.SL.Sem

/-- The word-level kernel program runs to the end without a fault and leaves its arguments as launched. -/
theorem frame_kernel : Cert.frame_Kernel := fun m ρ _ => Cert.Kernel.Gen.frame m ρ

/-- So does the idealized one. -/
theorem frame_kernel_ideal : Cert.frame_KernelIdeal := fun m ρ _ => Cert.KernelIdeal.Gen.frame m ρ

/-- And the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on the six arguments both programs end with the result at `network` of them. -/
theorem algebraic : Cert.algebraic_KernelIdeal_ReferenceIdeal := by
  intro m ρ m' ρ' _ hagree
  refine ⟨fun c => Cert.KernelIdeal.Whole.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5]
  exact Cert.ReferenceIdeal.AsNetwork.term_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
